-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000x2 : Shape := ⟨2, ![50000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S50000x2 : S_.BroadcastsInDim S50000x2 (![] : Fin 0 → Fin S50000x2.rank)
  reducesTo_S50000x2_S_d0_1 : S50000x2.ReducesTo [0, 1] S_

variable [Facts]

def fn_part1 {F : FTy → Type} [FloatOps F] (main_arg5 : FVec F S2 .f32) (main_arg6 : FVec F S50000x2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S50000x2 .f32 := Host.absf main_arg6
  let main_cst_8 : FVec F S_ .f32 := constant S_ .f32 0x7F800000#32
  let main_v25 : FVec F S50000x2 .f32 := broadcastInDim S50000x2 ![] bcast_S_S50000x2 main_cst_8
  let main_v26 : IVec S50000x2 1 := cmpf .olt main_v24 main_v25
  let main_c_9 : IVec S_ 1 := constantI S_ 1 1#1
  let main_v27 : IVec S_ 1 := (fun x v => Host.reduce IntOp.andi x v reducesTo_S50000x2_S_d0_1 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S128x128 .f32) (main_arg3 : FVec F S128 .f32) (main_arg4 : FVec F S128x2 .f32) (main_arg5 : FVec F S2 .f32) (main_arg6 : FVec F S50000x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000x2 : Shape := ⟨2, ![50000, 2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S5000x2 : Shape := ⟨2, ![5000, 2]⟩
abbrev S1650000x2 : Shape := ⟨2, ![1650000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 87
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000x2, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x2, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x2, .f32⟩
  | .hbm, ⟨76, _⟩ => ⟨S1650000x1, .f32⟩
  | .hbm, ⟨77, _⟩ => ⟨S1650000x2, .f32⟩
  | .hbm, ⟨78, _⟩ => ⟨S1650000x2, .f32⟩
  | .hbm, ⟨79, _⟩ => ⟨S_, .f32⟩
  | .hbm, ⟨80, _⟩ => ⟨S50000x2, .f32⟩
  | .hbm, ⟨81, _⟩ => ⟨S1650000x1, .i32⟩
  | .hbm, ⟨82, _⟩ => ⟨S50000x2, .f32⟩
  | .hbm, ⟨83, _⟩ => ⟨S1x2, .f32⟩
  | .hbm, ⟨84, _⟩ => ⟨S50000x2, .f32⟩
  | .hbm, ⟨85, _⟩ => ⟨S50000x2, .f32⟩
  | .hbm, ⟨86, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x2, .f32⟩
  | .local _ .vmem, ⟨8, _⟩ => ⟨S5000x2, .f32⟩
  | .local _ .vmem, ⟨9, _⟩ => ⟨S5000x2, .f32⟩
  | .local _ .vmem, ⟨10, _⟩ => ⟨S5000x2, .f32⟩
  | .local _ .vmem, ⟨11, _⟩ => ⟨S5000x2, .f32⟩
  | .local _ .vmem, ⟨12, _⟩ => ⟨S5000x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  shapeCasts_S5000x2_S5000x2 : S5000x2.ShapeCasts S5000x2
  reduces_S5000x2_S5000 : S5000x2.Reduces [1] S5000
  shapeCasts_S5000_S5000x1 : S5000.ShapeCasts S5000x1
  broadcasts_S5000x1_S5000x2 : S5000x1.Broadcasts S5000x2
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x2_S5000x2_1_0_0_1_n_n_wf : DotDims.WF S5000x128 S128x2 S5000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S50000x2.size a
  hwx1_2 : ∀ i : grid1.Coords, EltTy.bits .f32 = 32 ∨ (Rect.block (s := S50000x2) S5000x2.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S50000x2.size a
  hwx2_0 : ∀ i : grid2.Coords, EltTy.bits .f32 = 32 ∨ (Rect.block (s := S50000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S50000x2.size a
  hwx2_1 : ∀ i : grid2.Coords, EltTy.bits .f32 = 32 ∨ (Rect.block (s := S50000x2) S5000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S50000x2 : Shape := ⟨2, ![50000, 2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S1650000x2 : Shape := ⟨2, ![1650000, 2]⟩
abbrev S1x2 : Shape := ⟨2, ![1, 2]⟩
abbrev S50000x1 : Shape := ⟨2, ![50000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S50000x2, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x2, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x2, .f32⟩
  | .hbm, ⟨76, _⟩ => ⟨S1650000x1, .f32⟩
  | .hbm, ⟨77, _⟩ => ⟨S1650000x2, .f32⟩
  | .hbm, ⟨78, _⟩ => ⟨S1650000x2, .f32⟩
  | .hbm, ⟨79, _⟩ => ⟨S_, .f32⟩
  | .hbm, ⟨80, _⟩ => ⟨S50000x2, .f32⟩
  | .hbm, ⟨81, _⟩ => ⟨S1650000x1, .i32⟩
  | .hbm, ⟨82, _⟩ => ⟨S50000x2, .f32⟩
  | .hbm, ⟨83, _⟩ => ⟨S1x2, .f32⟩
  | .hbm, ⟨84, _⟩ => ⟨S50000x2, .f32⟩
  | .hbm, ⟨85, _⟩ => ⟨S50000x2, .f32⟩
  | .hbm, ⟨86, _⟩ => ⟨S_, .f32⟩
  | .hbm, ⟨87, _⟩ => ⟨S50000x2, .f32⟩
  | .hbm, ⟨88, _⟩ => ⟨S50000x2, .f32⟩
  | .hbm, ⟨89, _⟩ => ⟨S50000x2, .f32⟩
  | .hbm, ⟨90, _⟩ => ⟨S50000x2, .f32⟩
  | .hbm, ⟨91, _⟩ => ⟨S_, .f32⟩
  | .hbm, ⟨92, _⟩ => ⟨S50000x2, .f32⟩
  | .hbm, ⟨93, _⟩ => ⟨S50000x2, .f32⟩
  | .hbm, ⟨94, _⟩ => ⟨S50000x2, .f32⟩
  | .hbm, ⟨95, _⟩ => ⟨S50000x2, .f32⟩
  | .hbm, ⟨96, _⟩ => ⟨S50000x2, .f32⟩
  | .hbm, ⟨97, _⟩ => ⟨S_, .f32⟩
  | .hbm, ⟨98, _⟩ => ⟨S50000x2, .f32⟩
  | .hbm, ⟨99, _⟩ => ⟨S50000x2, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x2, .f32⟩
  | .hbm, ⟨107, _⟩ => ⟨S50000x2, .f32⟩
  | .hbm, ⟨108, _⟩ => ⟨S50000x2, .f32⟩
  | .hbm, ⟨109, _⟩ => ⟨S_, .f32⟩
  | .hbm, ⟨110, _⟩ => ⟨S50000, .f32⟩
  | .hbm, ⟨111, _⟩ => ⟨S50000x1, .f32⟩
  | .hbm, ⟨112, _⟩ => ⟨S50000x2, .f32⟩
  | .hbm, ⟨113, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_cst_15 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x2_S50000x2_1_0_0_1_n_n_wf : DotDims.WF S50000x128 S128x2 S50000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

class Facts : Prop extends Facts₀ where

variable [Facts]
-- ==== Proof.RefValue.lean ====
/-
  The reference program's buffers, stretch by stretch.

  The reference is one line of host operations. Read in four consecutive stretches from the launch memory: after the
  first the source list, the target list and the edge weights hold their values of the edge argument; after the second
  the first layer's output holds its value of the first four arguments; after the third the second layer's output holds
  its value of the first six; after the last the result holds its value of all seven. Each value is the stage function
  of the reading module, so the run ends with the result buffer at the last stage of the arguments.
-/
import proofs.«179099_j12137577578914_1_alg».proof.Proof.RefRead
import Idealize.ShloMosaic.Lib.StableHlo.Run
import Idealize.ShloMosaic.Lib.Pipeline.Frame

set_option maxRecDepth 16384

noncomputable section

namespace Cert.ReferenceIdeal.Outcome

open Idealize.ShloMosaic Idealize.ShloMosaic.TcCoe Idealize.SL.Sem Idealize.ShloMosaic.StableHlo
open Cert.ReferenceIdeal Cert.ReferenceIdeal.Gen Cert.ReferenceIdeal.Value Cert.ReferenceIdeal.Read

variable (m : (ℓ : Loc nD τ sig) → Buf (Elt Ideal) ℓ)

/-- What `after_results` does after unfolding the fold: each operation's result at its own buffer becomes its function's
    value, at another buffer what was there before (for the places a one-pass rewriting leaves untouched). -/
macro "rest_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-- The device's buffer contents at launch and after each stretch. -/
abbrev U0 (c : Dev nD) : Valuation τ sig (Elt Ideal) := launchContents m c
def U1 (c : Dev nD) : Valuation τ sig (Elt Ideal) := after opsA (U0 m c)
def U2 (c : Dev nD) : Valuation τ sig (Elt Ideal) := after opsB (U1 m c)
def U3 (c : Dev nD) : Valuation τ sig (Elt Ideal) := after opsC (U2 m c)
def U4 (c : Dev nD) : Valuation τ sig (Elt Ideal) := after opsS (U3 m c)

/-- The whole line's fold is the four stretches' folds in order. -/
theorem after_ops (c : Dev nD) : after (ops (F := Ideal)) (launchContents m c) = U4 m c := by
  rw [ops_split, StableHlo.after_append, StableHlo.after_append, StableHlo.after_append]
  rfl

/-! ## The typed references of the one call (the `where` that zeroes the weight of an isolated node)

The call's operation reads its operands and writes its result through references that carry the value's type; at these
literal references the carried type is the buffer's own, and carrying contents along that equation changes nothing. -/

theorem ofBuf_v12 (p1 p2 p3) (A : main_v12.ty.Contents (Elt Ideal)) :
    (TRef.of (T := ⟨S50000, .i1⟩) main_v12 p1 p2 p3).ofBuf A = A := rfl
theorem ofBuf_v13 (p1 p2 p3) (A : main_v13.ty.Contents (Elt Ideal)) :
    (TRef.of (T := ⟨S50000, .f32⟩) main_v13 p1 p2 p3).ofBuf A = A := rfl
theorem ofBuf_v14 (p1 p2 p3) (A : main_v14.ty.Contents (Elt Ideal)) :
    (TRef.of (T := ⟨S50000, .f32⟩) main_v14 p1 p2 p3).ofBuf A = A := rfl
theorem toBuf_v15 (p1 p2 p3) (A : (⟨S50000, .f32⟩ : BufTy).Contents (Elt Ideal)) :
    (TRef.of (T := ⟨S50000, .f32⟩) main_v15 p1 p2 p3).toBuf A = A := rfl

/-! ## After the first stretch -/

theorem U1_arg0 (c : Dev nD) : U1 m c (Proc.devRef .tc main_arg0) = (m ((c.tc : Thread nD τ).loc main_arg0)) := by
  show after opsA (U0 m c) (Proc.devRef .tc main_arg0) = _
  after_results
  all_goals rfl

theorem U1_arg2 (c : Dev nD) : U1 m c (Proc.devRef .tc main_arg2) = (m ((c.tc : Thread nD τ).loc main_arg2)) := by
  show after opsA (U0 m c) (Proc.devRef .tc main_arg2) = _
  after_results
  all_goals rfl

theorem U1_arg3 (c : Dev nD) : U1 m c (Proc.devRef .tc main_arg3) = (m ((c.tc : Thread nD τ).loc main_arg3)) := by
  show after opsA (U0 m c) (Proc.devRef .tc main_arg3) = _
  after_results
  all_goals rfl

theorem U1_arg4 (c : Dev nD) : U1 m c (Proc.devRef .tc main_arg4) = (m ((c.tc : Thread nD τ).loc main_arg4)) := by
  show after opsA (U0 m c) (Proc.devRef .tc main_arg4) = _
  after_results
  all_goals rfl

theorem U1_arg5 (c : Dev nD) : U1 m c (Proc.devRef .tc main_arg5) = (m ((c.tc : Thread nD τ).loc main_arg5)) := by
  show after opsA (U0 m c) (Proc.devRef .tc main_arg5) = _
  after_results
  all_goals rfl

theorem U1_arg6 (c : Dev nD) : U1 m c (Proc.devRef .tc main_arg6) = (m ((c.tc : Thread nD τ).loc main_arg6)) := by
  show after opsA (U0 m c) (Proc.devRef .tc main_arg6) = _
  after_results
  all_goals rfl

theorem U1_v3 (c : Dev nD) : U1 m c (Proc.devRef .tc main_v3) = val_main_v3 (F := Ideal) (m ((c.tc : Thread nD τ).loc main_arg1)) := by
  show after opsA (U0 m c) (Proc.devRef .tc main_v3) = _
  after_results
  rfl

theorem U1_v6 (c : Dev nD) : U1 m c (Proc.devRef .tc main_v6) = val_main_v6 (F := Ideal) (m ((c.tc : Thread nD τ).loc main_arg1)) := by
  show after opsA (U0 m c) (Proc.devRef .tc main_v6) = _
  after_results
  rfl

set_option maxHeartbeats 4000000 in
theorem U1_v30 (c : Dev nD) : U1 m c (Proc.devRef .tc main_v30) = val_main_v30 (F := Ideal) (m ((c.tc : Thread nD τ).loc main_arg1)) := by
  show after opsA (U0 m c) (Proc.devRef .tc main_v30) = _
  after_results_simp
  rest_results
  rw [ofBuf_v12, ofBuf_v13, ofBuf_v14, toBuf_v15]
  rfl

/-! ## After the second stretch -/

set_option maxHeartbeats 4000000 in
theorem U2_v47 (c : Dev nD) : U2 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  show after opsB (U1 m c) (Proc.devRef .tc main_v47) = _
  after_results_simp
  rw [U1_arg0, U1_arg2, U1_v3, U1_v6, U1_v30, U1_arg3]
  rfl

theorem U2_v3 (c : Dev nD) : U2 m c (Proc.devRef .tc main_v3) = val_main_v3 (F := Ideal) (m ((c.tc : Thread nD τ).loc main_arg1)) := by
  refine Eq.trans ?_ (U1_v3 m c)
  show after opsB (U1 m c) (Proc.devRef .tc main_v3) = _
  after_results

theorem U2_v6 (c : Dev nD) : U2 m c (Proc.devRef .tc main_v6) = val_main_v6 (F := Ideal) (m ((c.tc : Thread nD τ).loc main_arg1)) := by
  refine Eq.trans ?_ (U1_v6 m c)
  show after opsB (U1 m c) (Proc.devRef .tc main_v6) = _
  after_results

theorem U2_v30 (c : Dev nD) : U2 m c (Proc.devRef .tc main_v30) = val_main_v30 (F := Ideal) (m ((c.tc : Thread nD τ).loc main_arg1)) := by
  refine Eq.trans ?_ (U1_v30 m c)
  show after opsB (U1 m c) (Proc.devRef .tc main_v30) = _
  after_results

theorem U2_arg4 (c : Dev nD) : U2 m c (Proc.devRef .tc main_arg4) = (m ((c.tc : Thread nD τ).loc main_arg4)) := by
  refine Eq.trans ?_ (U1_arg4 m c)
  show after opsB (U1 m c) (Proc.devRef .tc main_arg4) = _
  after_results

theorem U2_arg5 (c : Dev nD) : U2 m c (Proc.devRef .tc main_arg5) = (m ((c.tc : Thread nD τ).loc main_arg5)) := by
  refine Eq.trans ?_ (U1_arg5 m c)
  show after opsB (U1 m c) (Proc.devRef .tc main_arg5) = _
  after_results

theorem U2_arg6 (c : Dev nD) : U2 m c (Proc.devRef .tc main_arg6) = (m ((c.tc : Thread nD τ).loc main_arg6)) := by
  refine Eq.trans ?_ (U1_arg6 m c)
  show after opsB (U1 m c) (Proc.devRef .tc main_arg6) = _
  after_results

/-! ## After the third stretch -/

set_option maxHeartbeats 4000000 in
theorem U3_v64 (c : Dev nD) : U3 m c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsC (U2 m c) (Proc.devRef .tc main_v64) = _
  after_results_simp
  rw [U2_v47, U2_arg4, U2_v3, U2_v6, U2_v30, U2_arg5]
  rfl

theorem U3_arg6 (c : Dev nD) : U3 m c (Proc.devRef .tc main_arg6) = (m ((c.tc : Thread nD τ).loc main_arg6)) := by
  refine Eq.trans ?_ (U2_arg6 m c)
  show after opsC (U2 m c) (Proc.devRef .tc main_arg6) = _
  after_results

/-! ## After the last stretch -/

set_option maxHeartbeats 4000000 in
/-- THE RESULT BUFFER after the whole line: the last stage of the seven arguments. -/
theorem result_eq (c : Dev nD) : after (ops (F := Ideal)) (launchContents m c) (Proc.devRef .tc main_v86)
    = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_ops]
  show after opsS (U3 m c) (Proc.devRef .tc main_v86) = _
  after_results_simp
  rw [U3_v64, U3_arg6]
  rfl

/-! ## The arguments: no operation writes one -/

theorem kept_arg0 (c : Dev nD) : after (ops (F := Ideal)) (launchContents m c) (Proc.devRef .tc main_arg0) = (m ((c.tc : Thread nD τ).loc main_arg0)) := by
  after_results_simp <;> rfl

theorem kept_arg1 (c : Dev nD) : after (ops (F := Ideal)) (launchContents m c) (Proc.devRef .tc main_arg1) = (m ((c.tc : Thread nD τ).loc main_arg1)) := by
  after_results_simp <;> rfl

theorem kept_arg2 (c : Dev nD) : after (ops (F := Ideal)) (launchContents m c) (Proc.devRef .tc main_arg2) = (m ((c.tc : Thread nD τ).loc main_arg2)) := by
  after_results_simp <;> rfl

theorem kept_arg3 (c : Dev nD) : after (ops (F := Ideal)) (launchContents m c) (Proc.devRef .tc main_arg3) = (m ((c.tc : Thread nD τ).loc main_arg3)) := by
  after_results_simp <;> rfl

theorem kept_arg4 (c : Dev nD) : after (ops (F := Ideal)) (launchContents m c) (Proc.devRef .tc main_arg4) = (m ((c.tc : Thread nD τ).loc main_arg4)) := by
  after_results_simp <;> rfl

theorem kept_arg5 (c : Dev nD) : after (ops (F := Ideal)) (launchContents m c) (Proc.devRef .tc main_arg5) = (m ((c.tc : Thread nD τ).loc main_arg5)) := by
  after_results_simp <;> rfl

theorem kept_arg6 (c : Dev nD) : after (ops (F := Ideal)) (launchContents m c) (Proc.devRef .tc main_arg6) = (m ((c.tc : Thread nD τ).loc main_arg6)) := by
  after_results_simp <;> rfl

end Cert.ReferenceIdeal.Outcome

end
-- ==== Proof.KernelRun.lean ====
/-
  The kernel program's run with its result named.

  The program is three pipelined kernel launches among stretches of host operations. Its run is the chain of those
  segments: each stretch of host operations maps the device's buffer contents to their contents after the operations,
  and each launch replaces its arrays by what its write-backs leave. After the last segment every unscoped buffer holds
  the last boundary's contents; read at the result buffer and at the seven argument buffers this gives the run below:
  every weakly fair execution terminates without a fault, the result buffer holds the last boundary's contents at
  that buffer, and the arguments are as launched.
-/
import proofs.«179099_j12137577578914_1_alg».proof.Proof.Gen.KernelIdeal.Frame

set_option maxRecDepth 16384

noncomputable section

namespace Cert.KernelIdeal.Outcome

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last segment boundary's contents and the argument arrays end as launched. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Outcome

end
-- ==== Proof.DenseBody.lean ====
/-
  The two dense layers: what each matrix-product launch leaves in its result array.

  Each launch walks ten row blocks of 5000 rows. At a block the body loads the block of the left operand and the whole
  right operand, multiplies them into a zero accumulator and stores the product as the block of the result. Over the
  extended reals a change of float format is the identity and a product into a zero accumulator is the plain sum
  over the contracted index, so the entry at row r (of the block) and column j is the sum over k of
  left[r, k] * right[k, j]. Row r of block t is row 5000 t + r of the array, the ten blocks tile the 50000 rows, and so
  the result array is, entry by entry, the sum over k of left[i, k] * right[k, j]: the host's matrix product of the two
  whole operands.
-/
import proofs.«179099_j12137577578914_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense

open Idealize.ShloMosaic Idealize.ShloMosaic.TcCoe Idealize.SL.Sem
open Idealize.ShloMosaic.Pipeline (Dat)
open Cert.KernelIdeal Cert.KernelIdeal.Gen

theorem hz : (![0, 0] : Fin 2 → Nat) = fun _ => 0 := funext fun a => by fin_cases a <;> rfl

/-! ## The first layer's body at an entry -/

/-- The left operand's entry that meets contraction index `k` at output entry `i`: row of `i`, column `k`. -/
abbrev lrow0 (i : S5000x128.Idx) (k : Fin 128) : S5000x128.Idx := fun a => match a with
  | ⟨0, _⟩ => ⟨(i 0).val, (i 0).isLt⟩
  | ⟨1, _⟩ => ⟨k.val, k.isLt⟩
/-- The right operand's entry: row `k`, column of `i`. -/
abbrev rcol0 (i : S5000x128.Idx) (k : Fin 128) : S128x128.Idx := fun a => match a with
  | ⟨0, _⟩ => ⟨k.val, k.isLt⟩
  | ⟨1, _⟩ => ⟨(i 1).val, (i 1).isLt⟩

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at an entry of the block: the sum over the contracted index of the products. -/
theorem pay0_apply (x : FVec Ideal S5000x128 .f32) (w : FVec Ideal S128x128 .f32) (i : S5000x128.Idx) :
    k0_pay1 (F := Ideal) x w i = ∑ k : Fin 128, x (lrow0 i k) * w (rcol0 i k) := by
  show FloatOps.matmul dot_S5000x128_S128x128_S5000x128_1_0_0_1_n_n none (truncf (F := Ideal) .bf16 x bitsLt_bf16_f32) (truncf (F := Ideal) .bf16 w bitsLt_bf16_f32) (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lrow0 i k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx i ((ValueIdx.contrEquiv1 dot_S5000x128_S128x128_S5000x128_1_0_0_1_n_n 128 rfl rfl).symm k) = rcol0 i k := funext fun a => Fin.ext (by
    match a with
    | ⟨0, _⟩ => exact (rhs0_0 _ _).trans hk
    | ⟨1, _⟩ => exact rhs0_1 _ _)
  show x (dot_S5000x128_S128x128_S5000x128_1_0_0_1_n_n.lhsIdx i _) * w (dot_S5000x128_S128x128_S5000x128_1_0_0_1_n_n.rhsIdx i _) = _
  rw [el, er]

/-! ## The second layer's body at an entry -/

abbrev lrow1 (i : S5000x2.Idx) (k : Fin 128) : S5000x128.Idx := fun a => match a with
  | ⟨0, _⟩ => ⟨(i 0).val, (i 0).isLt⟩
  | ⟨1, _⟩ => ⟨k.val, k.isLt⟩
abbrev rcol1 (i : S5000x2.Idx) (k : Fin 128) : S128x2.Idx := fun a => match a with
  | ⟨0, _⟩ => ⟨k.val, k.isLt⟩
  | ⟨1, _⟩ => ⟨(i 1).val, (i 1).isLt⟩

theorem lhs1_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs1_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs1_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs1_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The second body's product at an entry (the cast of the left block to its own shape changes nothing). -/
theorem pay1_apply (x : FVec Ideal S5000x128 .f32) (w : FVec Ideal S128x2 .f32) (i : S5000x2.Idx) :
    k1_pay1 (F := Ideal) x w i = ∑ k : Fin 128, x (lrow1 i k) * w (rcol1 i k) := by
  show FloatOps.matmul dot_S5000x128_S128x2_S5000x2_1_0_0_1_n_n none (truncf (F := Ideal) .bf16 (shapeCast S5000x128 x shapeCasts_S5000x128_S5000x128) bitsLt_bf16_f32) (truncf (F := Ideal) .bf16 w bitsLt_bf16_f32) (constant S5000x2 .f32 0x00000000#32) i = _
  rw [shapeCast_self]
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx i ((ValueIdx.contrEquiv1 dot_S5000x128_S128x2_S5000x2_1_0_0_1_n_n 128 rfl rfl).symm k) = lrow1 i k := funext fun a => Fin.ext (by
    match a with
    | ⟨0, _⟩ => exact lhs1_0 _ _
    | ⟨1, _⟩ => exact (lhs1_1 _ _).trans hk)
  have er : dot_S5000x128_S128x2_S5000x2_1_0_0_1_n_n.rhsIdx i ((ValueIdx.contrEquiv1 dot_S5000x128_S128x2_S5000x2_1_0_0_1_n_n 128 rfl rfl).symm k) = rcol1 i k := funext fun a => Fin.ext (by
    match a with
    | ⟨0, _⟩ => exact (rhs1_0 _ _).trans hk
    | ⟨1, _⟩ => exact rhs1_1 _ _)
  show x (dot_S5000x128_S128x2_S5000x2_1_0_0_1_n_n.lhsIdx i _) * w (dot_S5000x128_S128x2_S5000x2_1_0_0_1_n_n.rhsIdx i _) = _
  rw [el, er]

end Cert.KernelIdeal.Dense

end
-- ==== Proof.DenseArray.lean ====
/-
  The two dense layers: the result array of each matrix-product launch.

  Block t of the left operand and of the result is rows 5000 t … 5000 t + 4999 of its array; the right operand's one
  block is the whole matrix. What point t writes back is therefore block t of the host's matrix product of the two
  whole operands (entry (i, j) is the sum over k of left[i, k] · right[k, j]), and the ten blocks tile the rows.
  So each launch leaves in its result array the host's product of the arrays it found in its operand buffers.
-/
import proofs.«179099_j12137577578914_1_alg».proof.Proof.Gen.KernelIdeal.Frame
import proofs.«179099_j12137577578914_1_alg».proof.Proof.RefRead
import proofs.«179099_j12137577578914_1_alg».proof.Proof.DenseBody
import Idealize.ShloMosaic.Lib.Pipeline.Value
import Idealize.ShloMosaic.Lib.ValueIdx
import Idealize.ShloMosaic.PureOps.Ideal.Laws

set_option maxRecDepth 16384

noncomputable section

namespace Cert.KernelIdeal.Dense

open Idealize.ShloMosaic Idealize.ShloMosaic.TcCoe Idealize.SL.Sem
open Idealize.ShloMosaic.Pipeline (Dat)
open Cert.KernelIdeal Cert.KernelIdeal.Gen

-- the device's buffer contents when a launch is entered
variable (V : (c : Dev nD) → (b : Ref sig .tc) → Buf (Elt Ideal) ((c : Thread nD τ).loc b))

/-! ## The host's second product read at an entry, for any left operand -/

/-- The reference's second matrix product at an entry: the sum over the contracted index (the generated reading of
    that product, with the left operand any array). -/
theorem hostDot2_apply (y : FVec Ideal Cert.ReferenceIdeal.S50000x128 .f32)
    (x4 : FVec Ideal Cert.ReferenceIdeal.S128x2 .f32) (i : Cert.ReferenceIdeal.S50000x2.Idx) :
    Host.dotGeneral (F := Ideal) (φ₁ := .f32) (φ₂ := .f32) Cert.ReferenceIdeal.dot_S50000x128_S128x2_S50000x2_1_0_0_1_n_n none y x4 i
      = ∑ k : Fin 128, y (Cert.ReferenceIdeal.Read.lidx_main_v48 i k) * x4 (Cert.ReferenceIdeal.Read.ridx_main_v48 i k) := by
  simp only [Host.dotGeneral]
  rw [Ideal.dotGeneral_apply, ← Equiv.sum_comp (ValueIdx.contrEquiv1 Cert.ReferenceIdeal.dot_S50000x128_S128x2_S50000x2_1_0_0_1_n_n 128 rfl rfl).symm]
  refine Finset.sum_congr rfl fun k _ => ?_
  have hk := ValueIdx.contrEquiv1_symm_val Cert.ReferenceIdeal.dot_S50000x128_S128x2_S50000x2_1_0_0_1_n_n 128 rfl rfl k
  have el : Cert.ReferenceIdeal.dot_S50000x128_S128x2_S50000x2_1_0_0_1_n_n.lhsIdx i ((ValueIdx.contrEquiv1 Cert.ReferenceIdeal.dot_S50000x128_S128x2_S50000x2_1_0_0_1_n_n 128 rfl rfl).symm k) = Cert.ReferenceIdeal.Read.lidx_main_v48 i k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : Cert.ReferenceIdeal.dot_S50000x128_S128x2_S50000x2_1_0_0_1_n_n.rhsIdx i ((ValueIdx.contrEquiv1 Cert.ReferenceIdeal.dot_S50000x128_S128x2_S50000x2_1_0_0_1_n_n 128 rfl rfl).symm k) = Cert.ReferenceIdeal.Read.ridx_main_v48 i k := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

/-! ## The first launch -/

/-- The windows' block indices at point `t`: the row windows sit on block row `t`, the weight window on its one block. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- An entry of the left block at point `t` is the entry of the left array `5000 · t` rows further down. -/
theorem left0_apply (c : Dev nD) (t : Fin cfg0.N) (y : S5000x128.Idx) (i : S50000x128.Idx)
    (h0 : (i 0).val = win0_2.index t (0 : Fin 2) * 5000 + (y 0).val) (h1 : (i 1).val = (y 1).val) :
    (iblk0 V c 0 t : FVec Ideal S5000x128 .f32) y = (V c main_arg0 : S50000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right block at every point is the whole right array. -/
theorem right0_apply (c : Dev nD) (t : Fin cfg0.N) (y : S128x128.Idx) (i : S128x128.Idx)
    (h0 : (i 0).val = (y 0).val) (h1 : (i 1).val = (y 1).val) :
    (iblk0 V c 1 t : FVec Ideal S128x128 .f32) y = (V c main_arg2 : S128x128.Idx → EReal) i := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- What point `t` writes back is block `t` of the host's product of the two operand arrays. -/
theorem flushed0 (c : Dev nD) (t : Fin cfg0.N) :
    (dat0 V c).flushed 2 t = ((cfg0.win 2).blk t).view.read (Elt Ideal)
      (Cert.ReferenceIdeal.Read.val_main_v31 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (F := Ideal) (iblk0 V c 0 t) (iblk0 V c 1 t) j
    = Cert.ReferenceIdeal.Read.val_main_v31 (F := Ideal) (V c main_arg0) (V c main_arg2) (((cfg0.win 2).blk t).view.emb j)
  refine (pay0_apply (iblk0 V c 0 t) (iblk0 V c 1 t) j).trans ?_
  rw [Cert.ReferenceIdeal.Read.val_main_v31_apply]
  obtain ⟨e0, e1, e2, e3, e4, e5⟩ := idx0 t
  refine Finset.sum_congr rfl fun k _ => ?_
  have hl := left0_apply V c t (lrow0 j k) (Cert.ReferenceIdeal.Read.lidx_main_v31 (((cfg0.win 2).blk t).view.emb j) k)
    (by show win0_2.index t (0 : Fin 2) * 5000 + 1 * (j 0).val = win0_2.index t (0 : Fin 2) * 5000 + (j 0).val; omega) rfl
  have hr := right0_apply V c t (rcol0 j k) (Cert.ReferenceIdeal.Read.ridx_main_v31 (((cfg0.win 2).blk t).view.emb j) k)
    rfl (by show win0_2.index t (1 : Fin 2) * 128 + 1 * (j 1).val = (j 1).val; rw [e4]; omega)
  rw [hl, hr]

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row of the result is in some point's block: the block of its row divided by 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e5, ht]; omega
  | ⟨1, _⟩ => show win0_2.index t (1 : Fin 2) * 128 ≤ (i 1).val ∧ (i 1).val < win0_2.index t (1 : Fin 2) * 128 + 128; rw [e4]; omega

/-- THE FIRST LAYER'S ARRAY: the host's product of what the launch found in its two operand buffers. -/
theorem array0 (c : Dev nD) :
    (dat0 V c).arrAt 2 cfg0.N = Cert.ReferenceIdeal.Read.val_main_v31 (F := Ideal) (V c main_arg0) (V c main_arg2) :=
  (dat0 V c).arrAt_eq_of_cover 2 _ (fun t _ => flushed0 V c t) cover0

/-! ## The second launch -/

theorem idx1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

theorem left1_apply (c : Dev nD) (t : Fin cfg1.N) (y : S5000x128.Idx) (i : S50000x128.Idx)
    (h0 : (i 0).val = win1_2.index t (0 : Fin 2) * 5000 + (y 0).val) (h1 : (i 1).val = (y 1).val) :
    (iblk1 V c 0 t : FVec Ideal S5000x128 .f32) y = (V c main_v47 : S50000x128.Idx → EReal) i := by
  obtain ⟨e0, e1, -⟩ := idx1 t
  unfold iblk1
  rw [View.read_apply]
  show V c main_v47 _ = V c main_v47 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

theorem right1_apply (c : Dev nD) (t : Fin cfg1.N) (y : S128x2.Idx) (i : S128x2.Idx)
    (h0 : (i 0).val = (y 0).val) (h1 : (i 1).val = (y 1).val) :
    (iblk1 V c 1 t : FVec Ideal S128x2 .f32) y = (V c main_arg4 : S128x2.Idx → EReal) i := by
  obtain ⟨-, -, e2, e3, -⟩ := idx1 t
  unfold iblk1
  rw [View.read_apply]
  show V c main_arg4 _ = V c main_arg4 _
  congr 1
  funext a
  apply Fin.ext
  match a with
  | ⟨0, _⟩ => show win1_1.index t (0 : Fin 2) * 128 + 1 * (y 0).val = (i 0).val; rw [e2, h0]; omega
  | ⟨1, _⟩ => show win1_1.index t (1 : Fin 2) * 2 + 1 * (y 1).val = (i 1).val; rw [e3, h1]; omega

theorem flushed1 (c : Dev nD) (t : Fin cfg1.N) :
    (dat1 V c).flushed 2 t = ((cfg1.win 2).blk t).view.read (Elt Ideal)
      (Host.dotGeneral (F := Ideal) (φ₁ := .f32) (φ₂ := .f32) Cert.ReferenceIdeal.dot_S50000x128_S128x2_S50000x2_1_0_0_1_n_n none (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x2) hz]
  funext j
  show k1_pay1 (F := Ideal) (iblk1 V c 0 t) (iblk1 V c 1 t) j
    = Host.dotGeneral (F := Ideal) (φ₁ := .f32) (φ₂ := .f32) Cert.ReferenceIdeal.dot_S50000x128_S128x2_S50000x2_1_0_0_1_n_n none (V c main_v47) (V c main_arg4) (((cfg1.win 2).blk t).view.emb j)
  refine (pay1_apply (iblk1 V c 0 t) (iblk1 V c 1 t) j).trans ?_
  rw [hostDot2_apply]
  obtain ⟨e0, e1, e2, e3, e4, e5⟩ := idx1 t
  refine Finset.sum_congr rfl fun k _ => ?_
  have hl := left1_apply V c t (lrow1 j k) (Cert.ReferenceIdeal.Read.lidx_main_v48 (((cfg1.win 2).blk t).view.emb j) k)
    (by show win1_2.index t (0 : Fin 2) * 5000 + 1 * (j 0).val = win1_2.index t (0 : Fin 2) * 5000 + (j 0).val; omega) rfl
  have hr := right1_apply V c t (rcol1 j k) (Cert.ReferenceIdeal.Read.ridx_main_v48 (((cfg1.win 2).blk t).view.emb j) k)
    rfl (by show win1_2.index t (1 : Fin 2) * 2 + 1 * (j 1).val = (j 1).val; rw [e4]; omega)
  rw [hl, hr]

theorem mem_blk1 (t : Fin cfg1.N) (i : S50000x2.Idx) :
    i ∈ ((cfg1.win 2).blk t).view.set ↔ ∀ a : Fin 2, win1_2.index t a * S5000x2.size a ≤ (i a).val ∧ (i a).val < win1_2.index t a * S5000x2.size a + S5000x2.size a := by
  show i ∈ ((View.whole main_v48).slice (win1_2.rect t)).set ↔ _
  rw [View.set_slice_whole, Rect.mem_set_unit]
  exact Iff.rfl

theorem cover1 (i : S50000x2.Idx) :
    ∃ t : Fin cfg1.N, (cfg1.win 2).flush t = true ∧ i ∈ ((cfg1.win 2).blk t).view.set := by
  have hi0 : (i 0).val < 50000 := (i 0).isLt
  have hi1 : (i 1).val < 2 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e5, ht]; omega
  | ⟨1, _⟩ => show win1_2.index t (1 : Fin 2) * 2 ≤ (i 1).val ∧ (i 1).val < win1_2.index t (1 : Fin 2) * 2 + 2; rw [e4]; omega

/-- THE SECOND LAYER'S ARRAY: the host's product of what the launch found in its two operand buffers. -/
theorem array1 (c : Dev nD) :
    (dat1 V c).arrAt 2 cfg1.N
      = Host.dotGeneral (F := Ideal) (φ₁ := .f32) (φ₂ := .f32) Cert.ReferenceIdeal.dot_S50000x128_S128x2_S50000x2_1_0_0_1_n_n none (V c main_v47) (V c main_arg4) :=
  (dat1 V c).arrAt_eq_of_cover 2 _ (fun t _ => flushed1 V c t) cover1

end Cert.KernelIdeal.Dense

end
-- ==== Proof.GumbelRow.lean ====
/-
  One row of the gumbel-softmax, on the extended reals.

  A row has two entries. Each entry is a logit `a` perturbed by gumbel noise made from a uniform sample `n`,
  `g = -log (-log (n + ε) + ε)`, and scaled by the inverse temperature: `z = (a + g) · 2` as the kernel writes it
  (and it writes `-y` as `0 - y`), `z = (a + g) / (1/2)` as the reference does. On every extended real, dividing
  by the real one half is multiplying by the real two, and `0 - y = -y`; so the two scaled logits are the same
  number, whatever `a` and `n` are (no finiteness is used).

  The row's softmax is then `exp (z_q - M) / Σ_r exp (z_r - M)` with `M` the row's maximum taken from `-∞`.
  The reference's sum starts from the literal zero, which adds nothing.
-/
import Idealize.ShloMosaic.PureOps.Ideal
import Idealize.ShloMosaic.PureOps.Ideal.Laws

noncomputable section

namespace Cert.GumbelRow

open Idealize.ShloMosaic

/-- The pattern of `2.0` denotes the real two. -/
theorem ofBits_two : Ideal.ofBits .f32 0x40000000#32 = ((2 : ℝ) : EReal) := by
  simp [Ideal.ofBits, Ideal.ieee, -EReal.coe_mul]; norm_num

/-- The pattern of `0.5` denotes the real one half. -/
theorem ofBits_half : Ideal.ofBits .f32 0x3F000000#32 = (((1 : ℝ) / 2 : ℝ) : EReal) := by
  simp [Ideal.ofBits, Ideal.ieee, -EReal.coe_mul]; norm_num

/-- Dividing by one half is doubling, on every extended real. -/
theorem div_half_eq_mul_two (x : EReal) :
    Ideal.div x (Ideal.ofBits .f32 0x3F000000#32) = x * Ideal.ofBits .f32 0x40000000#32 := by
  rw [ofBits_half, ofBits_two, Ideal.div_coe (by norm_num : ((1 : ℝ) / 2) ≠ 0)]
  have h : ((1 : ℝ) / ((1 : ℝ) / 2)) = 2 := by norm_num
  rw [h]

/-- The perturbed, scaled logit as the kernel computes it. -/
def scaledK (a n : EReal) : EReal :=
  (a + (Ideal.ofBits .f32 0x00000000#32
        - Ideal.log ((Ideal.ofBits .f32 0x00000000#32 - Ideal.log (n + Ideal.ofBits .f32 0x3089705F#32)) + Ideal.ofBits .f32 0x3089705F#32)))
    * Ideal.ofBits .f32 0x40000000#32

/-- The perturbed, scaled logit as the reference computes it. -/
def scaledR (a n : EReal) : EReal :=
  Ideal.div (a + -(Ideal.log (-(Ideal.log (n + Ideal.ofBits .f32 0x3089705F#32)) + Ideal.ofBits .f32 0x3089705F#32)))
    (Ideal.ofBits .f32 0x3F000000#32)

/-- They are one number. -/
theorem scaled_eq (a n : EReal) : scaledK a n = scaledR a n := by
  unfold scaledK scaledR
  rw [div_half_eq_mul_two, Ideal.ofBits_zero_f32, zero_sub, zero_sub]

/-- A row's maximum, taken from `-∞` (twice: the reduction starts there, and the result is met with it again). -/
def rowMax (z : Fin 2 → EReal) : EReal :=
  max (Ideal.ofBits .f32 0xFF800000#32) ((Finset.univ : Finset (Fin 2)).fold max (Ideal.ofBits .f32 0xFF800000#32) z)

/-- A row's softmax at entry `q`. -/
def rowSoft (z : Fin 2 → EReal) (q : Fin 2) : EReal :=
  Ideal.div (Ideal.exp (z q - rowMax z)) (∑ r : Fin 2, Ideal.exp (z r - rowMax z))

/-- The same with the sum started from the literal zero, as the reference's reduction is. -/
theorem rowSoft_zero_add (z : Fin 2 → EReal) (q : Fin 2) :
    Ideal.div (Ideal.exp (z q - rowMax z)) (Ideal.ofBits .f32 0x00000000#32 + ∑ r : Fin 2, Ideal.exp (z r - rowMax z))
      = rowSoft z q := by
  unfold rowSoft
  rw [Ideal.ofBits_zero_f32, zero_add]

end Cert.GumbelRow

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.SoftmaxBody.lean ====
/-
  The gumbel-softmax launch: what its body leaves in a block, entry by entry.

  The body works on a block of 5000 rows of two entries. It forms the perturbed, scaled logits entry by entry, takes
  each row's maximum (a reduction over the row's two entries started from `-∞`, met with `-∞` once more), spreads it
  back over the row as a column, subtracts, exponentiates, sums each row, spreads the sums back and divides. So the
  entry at row p and position q is the row's softmax at q of the row's two scaled logits: a function of row p of the
  two loaded blocks alone.
-/
import proofs.«179099_j12137577578914_1_alg».proof.Proof.Gen.KernelIdeal.Skeleton
import proofs.«179099_j12137577578914_1_alg».proof.Proof.GumbelRow
import proofs.«179099_j12137577578914_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Soft

open Idealize.ShloMosaic Idealize.ShloMosaic.ValueIdx Idealize.SL.Sem
open Cert.KernelIdeal Cert.KernelIdeal.Gen Cert.GumbelRow

/-- Each row's maximum, as the body takes it. -/
def rowMaxVec (Z : FVec Ideal S5000x2 .f32) : FVec Ideal S5000 .f32 :=
  maximumf (broadcast S5000 (Scalar.ofBits (F := Ideal) .f32 0xFF800000#32))
    (multiReduction (F := Ideal) .maximumf [1] S5000 Z 0xFF800000#32 reduces_S5000x2_S5000 (.inl rfl) rfl)

/-- The exponentials of the logits shifted by their row's maximum. -/
def expShift (Z : FVec Ideal S5000x2 .f32) : FVec Ideal S5000x2 .f32 :=
  exp (subf Z (broadcastTo S5000x2 (shapeCast S5000x1 (rowMaxVec Z) shapeCasts_S5000_S5000x1) broadcasts_S5000x1_S5000x2))

/-- The block of softmaxes from the block of scaled logits. -/
def softBlock (Z : FVec Ideal S5000x2 .f32) : FVec Ideal S5000x2 .f32 :=
  divf (expShift Z)
    (broadcastTo S5000x2 (shapeCast S5000x1
      (multiReduction (F := Ideal) .add [1] S5000 (expShift Z) 0x00000000#32 reduces_S5000x2_S5000 (.inl rfl) rfl)
      shapeCasts_S5000_S5000x1) broadcasts_S5000x1_S5000x2)

/-- The body's stored value is the softmax block of the scaled logits of its two loaded blocks. -/
theorem pay2_eq (A N : Vec Ideal S5000x2 .f32) :
    k2_pay1 (F := Ideal) A N = softBlock (fun i => scaledK (A i) (N i)) := by
  unfold k2_pay1
  simp only [shapeCast_self]
  rfl

/-- The index a reduction over a row's two entries inserts: (p, r). -/
theorem lift_row (p : Fin 5000) (r : Fin 2) :
    reduces_S5000x2_S5000.lift (ix1 p) r = ix2 p r :=
  funext fun a => Fin.ext (by match a with | ⟨0, _⟩ => rfl | ⟨1, _⟩ => rfl)

theorem rowMaxVec_apply (Z : FVec Ideal S5000x2 .f32) (p : Fin 5000) :
    rowMaxVec Z (ix1 p) = rowMax (fun r => Z (ix2 p r)) := by
  show max (Ideal.ofBits .f32 0xFF800000#32)
    (multiReduction (F := Ideal) .maximumf [1] S5000 Z 0xFF800000#32 reduces_S5000x2_S5000 (.inl rfl) rfl (ix1 p)) = _
  unfold rowMax
  refine congrArg (max _) ?_
  refine (Ideal.multiReduction_maximumf_single Z 0xFF800000#32 reduces_S5000x2_S5000 (.inl rfl) rfl (ix1 p)).trans ?_
  show (Finset.univ : Finset (Fin 2)).fold max (Ideal.ofBits .f32 0xFF800000#32)
    (fun r => Z (reduces_S5000x2_S5000.lift (ix1 p) r)) = _
  refine Finset.fold_congr fun r _ => ?_
  exact congrArg Z (lift_row p r)

theorem expShift_apply (Z : FVec Ideal S5000x2 .f32) (p : Fin 5000) (q : Fin 2) :
    expShift Z (ix2 p q) = Ideal.exp (Z (ix2 p q) - rowMax (fun r => Z (ix2 p r))) := by
  show Ideal.exp (Z (ix2 p q)
    - broadcastTo S5000x2 (shapeCast S5000x1 (rowMaxVec Z) shapeCasts_S5000_S5000x1) broadcasts_S5000x1_S5000x2 (ix2 p q)) = _
  rw [Keepdims.broadcastTo_a1_ab_apply, Keepdims.shapeCast_a_a1_apply, rowMaxVec_apply]

theorem softBlock_apply (Z : FVec Ideal S5000x2 .f32) (p : Fin 5000) (q : Fin 2) :
    softBlock Z (ix2 p q) = rowSoft (fun r => Z (ix2 p r)) q := by
  show Ideal.div (expShift Z (ix2 p q))
    (broadcastTo S5000x2 (shapeCast S5000x1
      (multiReduction (F := Ideal) .add [1] S5000 (expShift Z) 0x00000000#32 reduces_S5000x2_S5000 (.inl rfl) rfl)
      shapeCasts_S5000_S5000x1) broadcasts_S5000x1_S5000x2 (ix2 p q)) = _
  rw [Keepdims.broadcastTo_a1_ab_apply, Keepdims.shapeCast_a_a1_apply, expShift_apply]
  unfold rowSoft
  refine congrArg (Ideal.div _) ?_
  refine (Ideal.multiReduction_add_single (expShift Z) 0x00000000#32 reduces_S5000x2_S5000 (.inl rfl) rfl (ix1 p)).trans ?_
  show ∑ r : Fin 2, expShift Z (reduces_S5000x2_S5000.lift (ix1 p) r) = _
  refine Finset.sum_congr rfl fun r _ => ?_
  rw [lift_row p r]
  exact expShift_apply Z p r

/-- The body's stored value at row `p`, position `q`: the row's softmax of its scaled logits. -/
theorem pay2_apply (A N : Vec Ideal S5000x2 .f32) (p : Fin 5000) (q : Fin 2) :
    k2_pay1 (F := Ideal) A N (ix2 p q) = rowSoft (fun r => scaledK (A (ix2 p r)) (N (ix2 p r))) q := by
  rw [pay2_eq]
  exact softBlock_apply _ p q

end Cert.KernelIdeal.Soft

end
-- ==== Proof.RefSoftmax.lean ====
/-
  The reference's last stage, entry by entry.

  After its second graph layer the reference perturbs the logits with gumbel noise, divides by the temperature one half
  and takes a softmax over each row of two entries: the row's maximum (a reduction from `-∞`, met with `-∞` again),
  the exponentials of the shifted entries, their sum (started from the literal zero) and the quotient. Read at row P and
  position q, the result is the row's softmax at q of the row's two scaled logits.
-/
import proofs.«179099_j12137577578914_1_alg».proof.Proof.RefRead
import proofs.«179099_j12137577578914_1_alg».proof.Proof.GumbelRow
import Idealize.ShloMosaic.Lib.ValueIdx
import Idealize.ShloMosaic.PureOps.Ideal.Laws
import Idealize.ShloMosaic.PureOps.Reduce

set_option maxRecDepth 16384

noncomputable section

namespace Cert.ReferenceIdeal.Soft

open Idealize.ShloMosaic Idealize.ShloMosaic.ValueIdx Idealize.SL.Sem
open Cert.ReferenceIdeal Cert.ReferenceIdeal.Gen Cert.ReferenceIdeal.Read Cert.GumbelRow

variable (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x2, .f32⟩ : BufTy).Contents (Elt Ideal)) (x5 : (⟨S2, .f32⟩ : BufTy).Contents (Elt Ideal)) (x6 : (⟨S50000x2, .f32⟩ : BufTy).Contents (Elt Ideal))

/-- The scaled logit at an entry, from the second layer's output and the noise at that entry. -/
theorem scaled_apply (i : S50000x2.Idx) :
    val_main_v75 (F := Ideal) x0 x1 x2 x3 x4 x5 x6 i = scaledR (val_main_v64 (F := Ideal) x0 x1 x2 x3 x4 x5 i) (x6 i) := by
  rw [val_main_v75_apply, val_main_v74_apply, val_main_cst_14_apply, val_main_v73_apply, val_main_v72_apply,
    val_main_v71_apply, val_main_v70_apply, val_main_v69_apply, val_main_cst_13_apply, val_main_v68_apply,
    val_main_v67_apply, val_main_v66_apply, val_main_v65_apply, val_main_cst_12_apply]
  rfl

/-- A witness that the last axis of a 50000 × 2 array reduces away (for the index a reduction inserts). -/
theorem reducesRow : S50000x2.Reduces [1] S50000 := by decide

theorem lift_row (P : Fin 50000) (r : Fin 2) : reducesRow.lift (ix1 P) r = ix2 P r :=
  funext fun a => Fin.ext (by match a with | ⟨0, _⟩ => rfl | ⟨1, _⟩ => rfl)

/-- The host's maximum over a row, from `-∞`: the fold of `max` over the row's two entries. -/
theorem hostRowMax (x : FVec Ideal S50000x2 .f32) (h' : S50000x2.ReducesTo [1] S50000) (hu : 0 < S_.numel) (P : Fin 50000) :
    Host.reduce FloatOps.maximumf x (constant (F := Ideal) S_ .f32 0xFF800000#32) h' hu (ix1 P)
      = (Finset.univ : Finset (Fin 2)).fold max (Ideal.ofBits .f32 0xFF800000#32) (fun r => x (ix2 P r)) := by
  rw [Host.reduce_eq_fold_single FloatOps.maximumf x _ h' reducesRow hu]
  have hf : (x ∘ reducesRow.lift (ix1 P)) = fun r : Fin 2 => x (ix2 P r) := funext fun r => congrArg x (lift_row P r)
  exact congrArg (fun f => Finset.fold max (Ideal.ofBits .f32 0xFF800000#32) f (Finset.univ : Finset (Fin 2))) hf

/-- The row's maximum. -/
theorem max_apply (P : Fin 50000) :
    val_main_v78 (F := Ideal) x0 x1 x2 x3 x4 x5 x6 (ix1 P)
      = rowMax (fun r => scaledR (val_main_v64 (F := Ideal) x0 x1 x2 x3 x4 x5 (ix2 P r)) (x6 (ix2 P r))) := by
  rw [val_main_v78_apply, val_main_v77_apply, val_main_cst_16_apply]
  unfold rowMax
  refine congrArg (max _) ?_
  refine (hostRowMax (val_main_v75 (F := Ideal) x0 x1 x2 x3 x4 x5 x6) reducesTo_S50000x2_S50000_d1 h_S_ P).trans ?_
  refine Finset.fold_congr fun r _ => ?_
  exact scaled_apply x0 x1 x2 x3 x4 x5 x6 (ix2 P r)

/-- The exponential of the shifted entry. -/
theorem exp_apply (P : Fin 50000) (q : Fin 2) :
    val_main_v82 (F := Ideal) x0 x1 x2 x3 x4 x5 x6 (ix2 P q)
      = Ideal.exp (scaledR (val_main_v64 (F := Ideal) x0 x1 x2 x3 x4 x5 (ix2 P q)) (x6 (ix2 P q))
          - rowMax (fun r => scaledR (val_main_v64 (F := Ideal) x0 x1 x2 x3 x4 x5 (ix2 P r)) (x6 (ix2 P r)))) := by
  rw [val_main_v82_apply, val_main_v81_apply, val_main_v80_apply, val_main_v79_apply, scaled_apply]
  have e : idx_main_v79 (idx_main_v80 (ix2 P q)) = ix1 P :=
    funext fun a => Fin.ext (by match a with | ⟨0, _⟩ => rfl)
  rw [e, max_apply]
  rfl

/-- The reference's result at row `P`, position `q`: the row's softmax of its scaled logits. -/
theorem result_apply (P : Fin 50000) (q : Fin 2) :
    val_main_v86 (F := Ideal) x0 x1 x2 x3 x4 x5 x6 (ix2 P q)
      = rowSoft (fun r => scaledR (val_main_v64 (F := Ideal) x0 x1 x2 x3 x4 x5 (ix2 P r)) (x6 (ix2 P r))) q := by
  rw [val_main_v86_apply, val_main_v85_apply, val_main_v84_apply, val_main_v83_apply, val_main_cst_17_apply, exp_apply]
  refine Eq.trans ?_ (rowSoft_zero_add _ q)
  refine congrArg (Ideal.div _) (congrArg (_ + ·) (Finset.sum_congr rfl fun r _ => ?_))
  have e : idx_main_v83 (idx_main_v84 (idx_main_v85 (ix2 P q))) r = ix2 P r :=
    funext fun a => Fin.ext (by match a with | ⟨0, _⟩ => rfl | ⟨1, _⟩ => rfl)
  rw [e]
  exact exp_apply x0 x1 x2 x3 x4 x5 x6 P r

end Cert.ReferenceIdeal.Soft

end
-- ==== Proof.SoftmaxArray.lean ====
/-
  The gumbel-softmax launch: its result array.

  Block t of the logits, of the noise and of the result is rows 5000 t … 5000 t + 4999 of its array. What point t
  writes back at row p, position q is the row softmax of the scaled logits of row 5000 t + p of the two arrays the
  launch found; the reference's last stage at that row and position is the same softmax of the same scaled logits
  (one number by the law of a row), when the logits array is the reference's second-layer output and the noise array
  is the noise argument. The ten blocks tile the rows, so the result array is the reference's result.
-/
import proofs.«179099_j12137577578914_1_alg».proof.Proof.Gen.KernelIdeal.Frame
import proofs.«179099_j12137577578914_1_alg».proof.Proof.SoftmaxBody
import proofs.«179099_j12137577578914_1_alg».proof.Proof.RefSoftmax
import Idealize.ShloMosaic.Lib.Pipeline.Value
import Idealize.ShloMosaic.Lib.ValueIdx

set_option maxRecDepth 16384

noncomputable section

namespace Cert.KernelIdeal.Soft

open Idealize.ShloMosaic Idealize.ShloMosaic.TcCoe Idealize.ShloMosaic.ValueIdx Idealize.SL.Sem
open Idealize.ShloMosaic.Pipeline (Dat)
open Cert.KernelIdeal Cert.KernelIdeal.Gen Cert.GumbelRow

variable (V : (c : Dev nD) → (b : Ref sig .tc) → Buf (Elt Ideal) ((c : Thread nD τ).loc b))

theorem hz : (![0, 0] : Fin 2 → Nat) = fun _ => 0 := funext fun a => by fin_cases a <;> rfl

/-- The three windows sit on block row `t` at point `t`. -/
theorem idx2 : ∀ t : Fin cfg2.N, win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) = t.val :=
  (by decide +kernel : ∀ t : Fin grid2.N, _)

theorem logits_apply (c : Dev nD) (t : Fin cfg2.N) (y : S5000x2.Idx) (i : S50000x2.Idx)
    (h0 : (i 0).val = win2_2.index t (0 : Fin 2) * 5000 + (y 0).val) (h1 : (i 1).val = (y 1).val) :
    (iblk2 V c 0 t : FVec Ideal S5000x2 .f32) y = (V c main_v64 : S50000x2.Idx → EReal) i := by
  obtain ⟨e0, e1, -⟩ := idx2 t
  unfold iblk2
  rw [View.read_apply]
  show V c main_v64 _ = V c main_v64 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 2 + 1 * (y 1).val = (i 1).val; rw [e1, h1]; omega

theorem noise_apply (c : Dev nD) (t : Fin cfg2.N) (y : S5000x2.Idx) (i : S50000x2.Idx)
    (h0 : (i 0).val = win2_2.index t (0 : Fin 2) * 5000 + (y 0).val) (h1 : (i 1).val = (y 1).val) :
    (iblk2 V c 1 t : FVec Ideal S5000x2 .f32) y = (V c main_arg6 : S50000x2.Idx → EReal) i := by
  obtain ⟨-, -, e2, e3, -⟩ := idx2 t
  unfold iblk2
  rw [View.read_apply]
  show V c main_arg6 _ = V c main_arg6 _
  congr 1
  funext a
  apply Fin.ext
  match a with
  | ⟨0, _⟩ => show win2_1.index t (0 : Fin 2) * 5000 + 1 * (y 0).val = (i 0).val; rw [e2, h0]; omega
  | ⟨1, _⟩ => show win2_1.index t (1 : Fin 2) * 2 + 1 * (y 1).val = (i 1).val; rw [e3, h1]; omega

section
variable (x0 : (⟨Cert.ReferenceIdeal.S50000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (x6 : (⟨Cert.ReferenceIdeal.S50000x2, .f32⟩ : BufTy).Contents (Elt Ideal))

/-- What point `t` writes back is block `t` of the reference's result. -/
theorem flushed2 (c : Dev nD) (t : Fin cfg2.N)
    (h64 : (V c main_v64 : S50000x2.Idx → EReal) = Cert.ReferenceIdeal.Read.val_main_v64 (F := Ideal) x0 x1 x2 x3 x4 x5)
    (h6 : (V c main_arg6 : S50000x2.Idx → EReal) = x6) :
    (dat2 V c).flushed 2 t = ((cfg2.win 2).blk t).view.read (Elt Ideal)
      (Cert.ReferenceIdeal.Read.val_main_v86 (F := Ideal) x0 x1 x2 x3 x4 x5 x6) := by
  show (cfg2.win 2).cut (grid2.coords t) ((dat2 V c).after 2 t) = _
  rw [after2_2]
  unfold out2_2
  rw [View.canon_unit_zero hz]
  simp only [View.ld_unit_zero (S := S5000x2) hz]
  obtain ⟨e0, e1, e2, e3, e4, e5⟩ := idx2 t
  have hN : cfg2.N = 10 := N_2
  have ht : t.val < 10 := by have := t.isLt; omega
  refine funext ?_
  show ∀ j : S5000x2.Idx, k2_pay1 (F := Ideal) (iblk2 V c 0 t) (iblk2 V c 1 t) j
    = Cert.ReferenceIdeal.Read.val_main_v86 (F := Ideal) x0 x1 x2 x3 x4 x5 x6 (((cfg2.win 2).blk t).view.emb j)
  intro j
  obtain ⟨p, q, rfl⟩ : ∃ (p : Fin 5000) (q : Fin 2), j = ix2 p q := ⟨j 0, j 1, eq_ix2 j⟩
  have hemb : ((cfg2.win 2).blk t).view.emb (ix2 p q)
      = (ix2 (⟨t.val * 5000 + p.val, by have := p.isLt; omega⟩ : Fin 50000) q : S50000x2.Idx) := by
    funext a
    apply Fin.ext
    match a with
    | ⟨0, _⟩ => show win2_2.index t (0 : Fin 2) * 5000 + 1 * p.val = t.val * 5000 + p.val; rw [e5]; omega
    | ⟨1, _⟩ => show win2_2.index t (1 : Fin 2) * 2 + 1 * q.val = q.val; rw [e4]; omega
  rw [hemb, Cert.ReferenceIdeal.Soft.result_apply]
  refine (pay2_apply (iblk2 V c 0 t) (iblk2 V c 1 t) p q).trans ?_
  refine congrArg (fun z => rowSoft z q) (funext fun r => ?_)
  rw [scaled_eq]
  have ha := logits_apply V c t (ix2 p r) (ix2 (⟨t.val * 5000 + p.val, by have := p.isLt; omega⟩ : Fin 50000) r)
    (by show t.val * 5000 + p.val = win2_2.index t (0 : Fin 2) * 5000 + p.val; rw [e5]) rfl
  have hn := noise_apply V c t (ix2 p r) (ix2 (⟨t.val * 5000 + p.val, by have := p.isLt; omega⟩ : Fin 50000) r)
    (by show t.val * 5000 + p.val = win2_2.index t (0 : Fin 2) * 5000 + p.val; rw [e5]) rfl
  rw [ha, hn, h64, h6]

end

theorem mem_blk2 (t : Fin cfg2.N) (i : S50000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v65).slice (win2_2.rect t)).set ↔ _
  rw [View.set_slice_whole, Rect.mem_set_unit]
  exact Iff.rfl

theorem cover2 (i : S50000x2.Idx) :
    ∃ t : Fin cfg2.N, (cfg2.win 2).flush t = true ∧ i ∈ ((cfg2.win 2).blk t).view.set := by
  have hi0 : (i 0).val < 50000 := (i 0).isLt
  have hi1 : (i 1).val < 2 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e5, ht]; omega
  | ⟨1, _⟩ => show win2_2.index t (1 : Fin 2) * 2 ≤ (i 1).val ∧ (i 1).val < win2_2.index t (1 : Fin 2) * 2 + 2; rw [e4]; omega

/-- THE LAST LAUNCH'S ARRAY: the reference's result, when the launch finds the reference's second-layer output in its
    logits buffer and the noise argument in its noise buffer. -/
theorem array2 (x0 : (⟨Cert.ReferenceIdeal.S50000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (x6 : (⟨Cert.ReferenceIdeal.S50000x2, .f32⟩ : BufTy).Contents (Elt Ideal)) (c : Dev nD)
    (h64 : (V c main_v64 : S50000x2.Idx → EReal) = Cert.ReferenceIdeal.Read.val_main_v64 (F := Ideal) x0 x1 x2 x3 x4 x5)
    (h6 : (V c main_arg6 : S50000x2.Idx → EReal) = x6) :
    (dat2 V c).arrAt 2 cfg2.N = Cert.ReferenceIdeal.Read.val_main_v86 (F := Ideal) x0 x1 x2 x3 x4 x5 x6 :=
  (dat2 V c).arrAt_eq_of_cover 2 _ (fun t _ => flushed2 V x0 x1 x2 x3 x4 x5 x6 c t h64 h6) cover2

end Cert.KernelIdeal.Soft

end
-- ==== Proof.HostStages.lean ====
/-
  The kernel program's buffers, boundary by boundary.

  The program's host operations are the reference's own, line for line, around the three launches: the edge lists with
  the self loops appended and the symmetric normalisation (before the first launch), then for each graph layer the
  gather of the dense layer's rows along the edges, the scaling, the scatter-add into the target nodes and the bias.
  Walking the segment boundaries from the launch memory: before the first launch the source list, the target list and
  the edge weights hold the reference's values of the edge argument; the first launch leaves the host's product of
  the feature and weight arguments; the next stretch of host operations then computes, of those values, exactly the
  reference's first-layer output; the second launch leaves the host's product of that and the second weight argument;
  the next stretch computes the reference's second-layer output; and the last launch leaves the reference's result.
-/
import proofs.«179099_j12137577578914_1_alg».proof.Proof.Gen.KernelIdeal.Frame
import proofs.«179099_j12137577578914_1_alg».proof.Proof.RefRead
import proofs.«179099_j12137577578914_1_alg».proof.Proof.DenseArray
import proofs.«179099_j12137577578914_1_alg».proof.Proof.SoftmaxArray
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- What `after_results` does after unfolding the fold: each operation's result at its own buffer becomes its function's
    value, at another buffer what was there before (for the places a one-pass rewriting leaves untouched). -/
macro "rest_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## The typed references of the one call (the `where` that zeroes the weight of an isolated node)

The call's operation reads its operands and writes its result through references that carry the value's type; at these
literal references the carried type is the buffer's own, and carrying contents along that equation changes nothing. -/

theorem ofBuf_v12 (p1 p2 p3) (A : main_v12.ty.Contents (Elt Ideal)) :
    (TRef.of (T := ⟨S50000, .i1⟩) main_v12 p1 p2 p3).ofBuf A = A := rfl
theorem ofBuf_v13 (p1 p2 p3) (A : main_v13.ty.Contents (Elt Ideal)) :
    (TRef.of (T := ⟨S50000, .f32⟩) main_v13 p1 p2 p3).ofBuf A = A := rfl
theorem ofBuf_v14 (p1 p2 p3) (A : main_v14.ty.Contents (Elt Ideal)) :
    (TRef.of (T := ⟨S50000, .f32⟩) main_v14 p1 p2 p3).ofBuf A = A := rfl
theorem toBuf_v15 (p1 p2 p3) (A : (⟨S50000, .f32⟩ : BufTy).Contents (Elt Ideal)) :
    (TRef.of (T := ⟨S50000, .f32⟩) main_v15 p1 p2 p3).toBuf A = A := rfl

/-! ## Before the first launch: the graph's lists, and the arguments untouched -/

theorem W3_arg0 (c : Dev nD) : W3 m ρ c (Proc.devRef .tc main_arg0) = (m ((c : Thread nD τ).loc main_arg0)) := by
  show after hostOps0_2 (after hostOps0_1 (after hostOps0 (W0 m ρ c))) (Proc.devRef .tc main_arg0) = _
  after_results
  all_goals rfl

theorem W3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  after_results
  all_goals rfl

theorem W3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  after_results
  all_goals rfl

theorem W3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  after_results
  all_goals rfl

theorem W3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  after_results
  all_goals rfl

theorem W3_arg6 (c : Dev nD) : W3 m ρ c (Proc.devRef .tc main_arg6) = (m ((c : Thread nD τ).loc main_arg6)) := by
  show after hostOps0_2 (after hostOps0_1 (after hostOps0 (W0 m ρ c))) (Proc.devRef .tc main_arg6) = _
  after_results
  all_goals rfl

/-- The source list (the first edge row, then every node once): the reference's value of the edge argument. -/
theorem W3_v3 (c : Dev nD) : W3 m ρ c (Proc.devRef .tc main_v3) = Cert.ReferenceIdeal.Read.val_main_v3 (F := Ideal) (m ((c : Thread nD τ).loc main_arg1)) := by
  show after hostOps0_2 (after hostOps0_1 (after hostOps0 (W0 m ρ c))) (Proc.devRef .tc main_v3) = _
  after_results
  rfl

/-- The target list (the second edge row, then every node once): the reference's value of the edge argument. -/
theorem W3_v6 (c : Dev nD) : W3 m ρ c (Proc.devRef .tc main_v6) = Cert.ReferenceIdeal.Read.val_main_v6 (F := Ideal) (m ((c : Thread nD τ).loc main_arg1)) := by
  show after hostOps0_2 (after hostOps0_1 (after hostOps0 (W0 m ρ c))) (Proc.devRef .tc main_v6) = _
  after_results
  rfl

set_option maxHeartbeats 4000000 in
/-- The edge weights: the inverse square roots of the two end nodes' degrees, multiplied: the reference's value of the edge argument. -/
theorem W3_v30 (c : Dev nD) : W3 m ρ c (Proc.devRef .tc main_v30) = Cert.ReferenceIdeal.Read.val_main_v30 (F := Ideal) (m ((c : Thread nD τ).loc main_arg1)) := by
  show after hostOps0_2 (after hostOps0_1 (after hostOps0 (W0 m ρ c))) (Proc.devRef .tc main_v30) = _
  after_results_simp
  rest_results
  rw [ofBuf_v12, ofBuf_v13, ofBuf_v14, toBuf_v15]
  rfl

/-! ## The first launch and the first layer's host operations -/

/-- The first launch leaves the host's product of the feature and weight arguments. -/
theorem W4_v31 (c : Dev nD) : W4 m ρ c (Proc.devRef .tc main_v31) = Cert.ReferenceIdeal.Read.val_main_v31 (F := Ideal) (m ((c : Thread nD τ).loc main_arg0)) (m ((c : Thread nD τ).loc main_arg2)) := by
  refine (W4_arr m ρ c 2).trans ((Cert.KernelIdeal.Dense.array0 (V3 m ρ) c).trans ?_)
  show Cert.ReferenceIdeal.Read.val_main_v31 (F := Ideal) (W3 m ρ c (Proc.devRef .tc main_arg0)) (W3 m ρ c (Proc.devRef .tc main_arg2)) = _
  rw [W3_arg0, W3_arg2]

theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (W3_v3 m ρ c)

theorem W4_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (W3_v6 m ρ c)

theorem W4_v30 (c : Dev nD) : W4 m ρ c (Proc.devRef .tc main_v30) = Cert.ReferenceIdeal.Read.val_main_v30 (F := Ideal) (m ((c : Thread nD τ).loc main_arg1)) :=
  (W4_of_ne m ρ c main_v30 (by decide)).trans (W3_v30 m ρ c)

theorem W4_arg3 (c : Dev nD) : W4 m ρ c (Proc.devRef .tc main_arg3) = (m ((c : Thread nD τ).loc main_arg3)) :=
  (W4_of_ne m ρ c main_arg3 (by decide)).trans (W3_arg3 m ρ c)

theorem W4_arg4 (c : Dev nD) : W4 m ρ c (Proc.devRef .tc main_arg4) = (m ((c : Thread nD τ).loc main_arg4)) :=
  (W4_of_ne m ρ c main_arg4 (by decide)).trans (W3_arg4 m ρ c)

theorem W4_arg5 (c : Dev nD) : W4 m ρ c (Proc.devRef .tc main_arg5) = (m ((c : Thread nD τ).loc main_arg5)) :=
  (W4_of_ne m ρ c main_arg5 (by decide)).trans (W3_arg5 m ρ c)

theorem W4_arg6 (c : Dev nD) : W4 m ρ c (Proc.devRef .tc main_arg6) = (m ((c : Thread nD τ).loc main_arg6)) :=
  (W4_of_ne m ρ c main_arg6 (by decide)).trans (W3_arg6 m ρ c)

set_option maxHeartbeats 4000000 in
/-- The first layer's output: the reference's, of the same arguments. -/
theorem W5_v47 (c : Dev nD) : W5 m ρ c (Proc.devRef .tc main_v47) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  show after hostOps1 (W4 m ρ c) (Proc.devRef .tc main_v47) = _
  after_results_simp
  rw [W4_v31, W4_v3, W4_v6, W4_v30, W4_arg3]
  rfl

theorem W5_v3 (c : Dev nD) : W5 m ρ c (Proc.devRef .tc main_v3) = Cert.ReferenceIdeal.Read.val_main_v3 (F := Ideal) (m ((c : Thread nD τ).loc main_arg1)) := by
  refine Eq.trans ?_ (W4_v3 m ρ c)
  show after hostOps1 (W4 m ρ c) (Proc.devRef .tc main_v3) = _
  after_results

theorem W5_v6 (c : Dev nD) : W5 m ρ c (Proc.devRef .tc main_v6) = Cert.ReferenceIdeal.Read.val_main_v6 (F := Ideal) (m ((c : Thread nD τ).loc main_arg1)) := by
  refine Eq.trans ?_ (W4_v6 m ρ c)
  show after hostOps1 (W4 m ρ c) (Proc.devRef .tc main_v6) = _
  after_results

theorem W5_v30 (c : Dev nD) : W5 m ρ c (Proc.devRef .tc main_v30) = Cert.ReferenceIdeal.Read.val_main_v30 (F := Ideal) (m ((c : Thread nD τ).loc main_arg1)) := by
  refine Eq.trans ?_ (W4_v30 m ρ c)
  show after hostOps1 (W4 m ρ c) (Proc.devRef .tc main_v30) = _
  after_results

theorem W5_arg4 (c : Dev nD) : W5 m ρ c (Proc.devRef .tc main_arg4) = (m ((c : Thread nD τ).loc main_arg4)) := by
  refine Eq.trans ?_ (W4_arg4 m ρ c)
  show after hostOps1 (W4 m ρ c) (Proc.devRef .tc main_arg4) = _
  after_results

theorem W5_arg5 (c : Dev nD) : W5 m ρ c (Proc.devRef .tc main_arg5) = (m ((c : Thread nD τ).loc main_arg5)) := by
  refine Eq.trans ?_ (W4_arg5 m ρ c)
  show after hostOps1 (W4 m ρ c) (Proc.devRef .tc main_arg5) = _
  after_results

theorem W5_arg6 (c : Dev nD) : W5 m ρ c (Proc.devRef .tc main_arg6) = (m ((c : Thread nD τ).loc main_arg6)) := by
  refine Eq.trans ?_ (W4_arg6 m ρ c)
  show after hostOps1 (W4 m ρ c) (Proc.devRef .tc main_arg6) = _
  after_results

/-! ## The second launch and the second layer's host operations -/

/-- The second launch leaves the host's product of the first layer's output and the second weight argument. -/
theorem W6_v48 (c : Dev nD) : W6 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.Dense.array1 (V5 m ρ) c).trans ?_)
  show Host.dotGeneral (F := Ideal) (φ₁ := .f32) (φ₂ := .f32) Cert.ReferenceIdeal.dot_S50000x128_S128x2_S50000x2_1_0_0_1_n_n none (W5 m ρ c (Proc.devRef .tc main_v47)) (W5 m ρ c (Proc.devRef .tc main_arg4)) = _
  rw [W5_v47, W5_arg4]
  rfl

theorem W6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (W5_v3 m ρ c)

theorem W6_v6 (c : Dev nD) : W6 m ρ c (Proc.devRef .tc main_v6) = Cert.ReferenceIdeal.Read.val_main_v6 (F := Ideal) (m ((c : Thread nD τ).loc main_arg1)) :=
  (W6_of_ne m ρ c main_v6 (by decide)).trans (W5_v6 m ρ c)

theorem W6_v30 (c : Dev nD) : W6 m ρ c (Proc.devRef .tc main_v30) = Cert.ReferenceIdeal.Read.val_main_v30 (F := Ideal) (m ((c : Thread nD τ).loc main_arg1)) :=
  (W6_of_ne m ρ c main_v30 (by decide)).trans (W5_v30 m ρ c)

theorem W6_arg5 (c : Dev nD) : W6 m ρ c (Proc.devRef .tc main_arg5) = (m ((c : Thread nD τ).loc main_arg5)) :=
  (W6_of_ne m ρ c main_arg5 (by decide)).trans (W5_arg5 m ρ c)

theorem W6_arg6 (c : Dev nD) : W6 m ρ c (Proc.devRef .tc main_arg6) = (m ((c : Thread nD τ).loc main_arg6)) :=
  (W6_of_ne m ρ c main_arg6 (by decide)).trans (W5_arg6 m ρ c)

set_option maxHeartbeats 4000000 in
/-- The second layer's output: the reference's, of the same arguments. -/
theorem W7_v64 (c : Dev nD) : W7 m ρ c (Proc.devRef .tc main_v64) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show after hostOps2 (W6 m ρ c) (Proc.devRef .tc main_v64) = _
  after_results_simp
  rw [W6_v48, W6_v3, W6_v6, W6_v30, W6_arg5]
  rfl

theorem W7_arg6 (c : Dev nD) : W7 m ρ c (Proc.devRef .tc main_arg6) = (m ((c : Thread nD τ).loc main_arg6)) := by
  refine Eq.trans ?_ (W6_arg6 m ρ c)
  show after hostOps2 (W6 m ρ c) (Proc.devRef .tc main_arg6) = _
  after_results

/-! ## The last launch -/

/-- THE RESULT BUFFER after the last launch: the reference's result, of the same arguments. -/
theorem W8_v65 (c : Dev nD) : W8 m ρ c (Proc.devRef .tc main_v65)
    = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans (Cert.KernelIdeal.Soft.array2 (V7 m ρ) _ _ _ _ _ _ _ c (W7_v64 m ρ c) (W7_arg6 m ρ c))

end Cert.KernelIdeal.Stages

end
-- ==== Proof.lean ====
/-
  Two stacked graph-convolution layers followed by a gumbel-softmax: the kernel program against its reference.

  Both programs compute, from node features x, an edge list, two weight matrices W1, W2 with biases b1, b2 and uniform
  noise: the symmetric normalisation of the graph with self loops; h = A (x W1) + b1; logits = A (h W2) + b2, where A
  gathers rows along the edges, scales them by the edge weights and scatter-adds them into the target nodes; and the
  row softmax of (logits + g) / (1/2) with g = -log (-log (noise + ε) + ε).

  The kernel program runs the two dense products and the last stage as pipelined launches over ten blocks of 5000 rows
  and keeps the graph operations on the host, where they are the reference's own operations line for line. At the ideal
  values: a change of float format is the identity and a product accumulated into zero is the plain sum over the
  contracted index, so each dense launch leaves the host's product of its operand arrays (Proof/DenseBody, DenseArray);
  the last launch writes, row by row, the softmax of the scaled logits, which the kernel spells (a + g) · 2 with 0 - y
  for -y and the reference (a + g) / (1/2), one number on every extended real (Proof/GumbelRow, SoftmaxBody,
  SoftmaxArray, RefSoftmax). Walking the kernel program's segment boundaries (Proof/KernelRun, HostStages) and the
  reference's line of operations (Proof/RefRun, RefRead, RefValue) gives both result buffers as the same function of
  the seven arguments. No finiteness of the inputs is used.
-/
import proofs.«179099_j12137577578914_1_alg».proof.Defs
import proofs.«179099_j12137577578914_1_alg».proof.Proof.Gen.Kernel
import proofs.«179099_j12137577578914_1_alg».proof.Proof.Gen.Kernel.Skeleton
import proofs.«179099_j12137577578914_1_alg».proof.Proof.Gen.Kernel.Launch
import proofs.«179099_j12137577578914_1_alg».proof.Proof.Gen.Kernel.Points
import proofs.«179099_j12137577578914_1_alg».proof.Proof.Gen.Kernel.Frame
import proofs.«179099_j12137577578914_1_alg».proof.Proof.Gen.KernelIdeal
import proofs.«179099_j12137577578914_1_alg».proof.Proof.Gen.KernelIdeal.Skeleton
import proofs.«179099_j12137577578914_1_alg».proof.Proof.Gen.KernelIdeal.Launch
import proofs.«179099_j12137577578914_1_alg».proof.Proof.Gen.KernelIdeal.Points
import proofs.«179099_j12137577578914_1_alg».proof.Proof.Gen.KernelIdeal.Frame
import proofs.«179099_j12137577578914_1_alg».proof.Proof.Gen.ReferenceIdeal
import proofs.«179099_j12137577578914_1_alg».proof.Proof.Gen.Pre_finite_inputs
import proofs.«179099_j12137577578914_1_alg».proof.Proof.RefRun
import proofs.«179099_j12137577578914_1_alg».proof.Proof.RefRead
import proofs.«179099_j12137577578914_1_alg».proof.Proof.RefValue
import proofs.«179099_j12137577578914_1_alg».proof.Proof.KernelRun
import proofs.«179099_j12137577578914_1_alg».proof.Proof.HostStages
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of its line writes an argument. -/
theorem frame_referenceIdeal : Cert.frame_ReferenceIdeal := fun m ρ _ =>
  (θ_run Cert.ReferenceIdeal.defs _ _).mono (fun _ h c =>
    ⟨(h c _).trans (Cert.ReferenceIdeal.Outcome.kept_arg0 m c), (h c _).trans (Cert.ReferenceIdeal.Outcome.kept_arg1 m c),
     (h c _).trans (Cert.ReferenceIdeal.Outcome.kept_arg2 m c), (h c _).trans (Cert.ReferenceIdeal.Outcome.kept_arg3 m c),
     (h c _).trans (Cert.ReferenceIdeal.Outcome.kept_arg4 m c), (h c _).trans (Cert.ReferenceIdeal.Outcome.kept_arg5 m c),
     (h c _).trans (Cert.ReferenceIdeal.Outcome.kept_arg6 m c)⟩)
    (Cert.ReferenceIdeal.Value.run (F := Ideal) m ρ)

/-- The ideal pass rewrote nothing: the idealization is the program's own text read at the ideal values. -/
theorem preserves : Cert.preserves_Kernel_KernelIdeal := trivial

/-- From memories agreeing on the seven arguments both programs end with the result buffer at the reference's last
    stage of those arguments. -/
theorem algebraic : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.W8_v65 m ρ c), (h c).2⟩)
      (Cert.KernelIdeal.Outcome.run_result (F := Ideal) m ρ)
  · refine (θ_run Cert.ReferenceIdeal.defs _ _).mono (fun _ h c => ⟨?_,
      (h c _).trans (Cert.ReferenceIdeal.Outcome.kept_arg0 m' c), (h c _).trans (Cert.ReferenceIdeal.Outcome.kept_arg1 m' c),
      (h c _).trans (Cert.ReferenceIdeal.Outcome.kept_arg2 m' c), (h c _).trans (Cert.ReferenceIdeal.Outcome.kept_arg3 m' c),
      (h c _).trans (Cert.ReferenceIdeal.Outcome.kept_arg4 m' c), (h c _).trans (Cert.ReferenceIdeal.Outcome.kept_arg5 m' c),
      (h c _).trans (Cert.ReferenceIdeal.Outcome.kept_arg6 m' c)⟩)
      (Cert.ReferenceIdeal.Value.run (F := Ideal) m' ρ')
    refine (h c _).trans ((Cert.ReferenceIdeal.Outcome.result_eq m' c).trans ?_)
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
